-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S256 : Shape := ⟨1, ![256]⟩
abbrev S768x256 : Shape := ⟨2, ![768, 256]⟩
abbrev S768 : Shape := ⟨1, ![768]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x4096 .f32) (main_arg1 : FVec F S256 .f32) (main_arg2 : FVec F S256 .f32) (main_arg3 : FVec F S768x256 .f32) (main_arg4 : FVec F S768 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_v13 main_v16
-- ==== Kernel.lean ====
abbrev S32x4096 : Shape := ⟨2, ![32, 4096]⟩
abbrev S256 : Shape := ⟨1, ![256]⟩
abbrev S768x256 : Shape := ⟨2, ![768, 256]⟩
abbrev S768 : Shape := ⟨1, ![768]⟩
abbrev S131072 : Shape := ⟨1, ![131072]⟩
abbrev S256x768 : Shape := ⟨2, ![256, 768]⟩
abbrev S131072x768 : Shape := ⟨2, ![131072, 768]⟩
abbrev S1024 : Shape := ⟨1, ![1024]⟩
abbrev S1024x768 : Shape := ⟨2, ![1024, 768]⟩
abbrev S1024x1 : Shape := ⟨2, ![1024, 1]⟩
abbrev S1x256 : Shape := ⟨2, ![1, 256]⟩
abbrev S1024x256 : Shape := ⟨2, ![1024, 256]⟩
abbrev S1x768 : Shape := ⟨2, ![1, 768]⟩
abbrev S32x4096x768 : Shape := ⟨3, ![32, 4096, 768]⟩

abbrev nBuf : Space → Nat
  | .hbm => 9
  | .vmem => 8
  | .smem => 0
  | _ => 0

abbrev bufTy : (tb : Table) → Fin (tcTables nBuf tb) → BufTy
  | .hbm, ⟨0, _⟩ => ⟨S32x4096, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S768, .f32⟩
  | .hbm, ⟨5, _⟩ => ⟨S131072, .f32⟩
  | .hbm, ⟨6, _⟩ => ⟨S256x768, .f32⟩
  | .hbm, ⟨7, _⟩ => ⟨S131072x768, .f32⟩
  | .hbm, ⟨8, _⟩ => ⟨S32x4096x768, .f32⟩
  | .local _ .vmem, ⟨0, _⟩ => ⟨S1024, .f32⟩
  | .local _ .vmem, ⟨1, _⟩ => ⟨S1024, .f32⟩
  | .local _ .vmem, ⟨2, _⟩ => ⟨S256, .f32⟩
  | .local _ .vmem, ⟨3, _⟩ => ⟨S256, .f32⟩
  | .local _ .vmem, ⟨4, _⟩ => ⟨S256x768, .f32⟩
  | .local _ .vmem, ⟨5, _⟩ => ⟨S768, .f32⟩
  | .local _ .vmem, ⟨6, _⟩ => ⟨S1024x768, .f32⟩
  | .local _ .vmem, ⟨7, _⟩ => ⟨S1024x768, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x4096_S131072 : S32x4096.ShapeCasts S131072
  transposes_S768x256_S256x768_1_0 : S768x256.Transposes [1, 0] S256x768
  inb_S1024_S1024_0 : ∀ a, (![0] : Fin 1 → Nat) a + S1024.size a ≤ S1024.size a
  h_S1024 : 0 < S1024.numel
  shapeCasts_S1024_S1024 : S1024.ShapeCasts S1024
  inb_S256_S256_0 : ∀ a, (![0] : Fin 1 → Nat) a + S256.size a ≤ S256.size a
  h_S256 : 0 < S256.numel
  shapeCasts_S1024_S1024x1 : S1024.ShapeCasts S1024x1
  shapeCasts_S256_S1x256 : S256.ShapeCasts S1x256
  broadcasts_S1024x1_S1024x256 : S1024x1.Broadcasts S1024x256
  broadcasts_S1x256_S1024x256 : S1x256.Broadcasts S1024x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S131072x768_S32x4096x768 : S131072x768.ShapeCasts S32x4096x768
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S131072.size a
  hwx0_0 : ∀ i : grid0.Coords, EltTy.bits .f32 = 32 ∨ (Rect.block (s := S131072) S1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S131072x768.size a
  hwx0_5 : ∀ i : grid0.Coords, EltTy.bits .f32 = 32 ∨ (Rect.block (s := S131072x768) S1024x768.size (cc0_transform_5 i) (hinb0_5 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_v0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S256 : Shape := ⟨1, ![256]⟩
abbrev S768x256 : Shape := ⟨2, ![768, 256]⟩
abbrev S768 : Shape := ⟨1, ![768]⟩
abbrev S32x4096x1 : Shape := ⟨3, ![32, 4096, 1]⟩
abbrev S1x1x256 : Shape := ⟨3, ![1, 1, 256]⟩
abbrev S32x4096x256 : Shape := ⟨3, ![32, 4096, 256]⟩
abbrev S32x4096x768 : Shape := ⟨3, ![32, 4096, 768]⟩
abbrev S1x1x768 : Shape := ⟨3, ![1, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S256, .f32⟩
  | .hbm, ⟨2, _⟩ => ⟨S256, .f32⟩
  | .hbm, ⟨3, _⟩ => ⟨S768x256, .f32⟩
  | .hbm, ⟨4, _⟩ => ⟨S768, .f32⟩
  | .hbm, ⟨5, _⟩ => ⟨S32x4096x1, .f32⟩
  | .hbm, ⟨6, _⟩ => ⟨S1x1x256, .f32⟩
  | .hbm, ⟨7, _⟩ => ⟨S32x4096x256, .f32⟩
  | .hbm, ⟨8, _⟩ => ⟨S32x4096x256, .f32⟩
  | .hbm, ⟨9, _⟩ => ⟨S32x4096x256, .f32⟩
  | .hbm, ⟨10, _⟩ => ⟨S1x1x256, .f32⟩
  | .hbm, ⟨11, _⟩ => ⟨S32x4096x256, .f32⟩
  | .hbm, ⟨12, _⟩ => ⟨S32x4096x256, .f32⟩
  | .hbm, ⟨13, _⟩ => ⟨S32x4096x768, .f32⟩
  | .hbm, ⟨14, _⟩ => ⟨S1x1x768, .f32⟩
  | .hbm, ⟨15, _⟩ => ⟨S32x4096x768, .f32⟩
  | .hbm, ⟨16, _⟩ => ⟨S32x4096x768, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S32x4096_S32x4096x1_0_1 : S32x4096.BroadcastsInDim S32x4096x1 (![0, 1] : Fin 2 → Fin S32x4096x1.rank)
  bcast_S256_S1x1x256_2 : S256.BroadcastsInDim S1x1x256 (![2] : Fin 1 → Fin S1x1x256.rank)
  bcast_S32x4096x1_S32x4096x256_0_1_2 : S32x4096x1.BroadcastsInDim S32x4096x256 (![0, 1, 2] : Fin 3 → Fin S32x4096x256.rank)
  bcast_S1x1x256_S32x4096x256_0_1_2 : S1x1x256.BroadcastsInDim S32x4096x256 (![0, 1, 2] : Fin 3 → Fin S32x4096x256.rank)
  bcast_S768_S1x1x768_2 : S768.BroadcastsInDim S1x1x768 (![2] : Fin 1 → Fin S1x1x768.rank)
  bcast_S1x1x768_S32x4096x768_0_1_2 : S1x1x768.BroadcastsInDim S32x4096x768 (![0, 1, 2] : Fin 3 → Fin S32x4096x768.rank)
  dot_S32x4096x256_S768x256_S32x4096x768_2_1_01_0_n_n_wf : DotDims.WF S32x4096x256 S768x256 S32x4096x768 [2] [1] [0, 1] [0] [] []

variable [Facts₀]

def dot_S32x4096x256_S768x256_S32x4096x768_2_1_01_0_n_n : DotDims S32x4096x256 S768x256 S32x4096x768 where
  lhsContracting := [2]
  rhsContracting := [1]
  lhsNonContracting := [0, 1]
  rhsNonContracting := [0]
  lhsBatch := []
  rhsBatch := []
  wf := dot_S32x4096x256_S768x256_S32x4096x768_2_1_01_0_n_n_wf

class Facts : Prop extends Facts₀ where

variable [Facts]
-- ==== Proof.Spec.lean ====
/-
  The numeric embedding both programs compute, as one function of the five argument arrays.

  For a batch entry (b, s) and an output feature d,

      out (b, s, d) = ∑ₖ (numbers (b, s) · w_enc k + b_enc k) · W_proj (d, k) + b_proj d,      k over the 256 encoder features:

  the scalar numbers (b, s) is encoded as the vector  numbers (b, s) · w_enc + b_enc  and that vector is projected by the
  768 × 256 matrix W_proj, with the bias b_proj added. Every entry is one sum of 256 products, so it is convenient to name
  the sum once (`rowEntry`) for a scalar, the two encoder vectors, one column of 256 weights and one bias, and to read the
  result off it in the three index spaces that occur: the final [32, 4096, 768] array (`embed`), the same entries laid out as
  131072 rows of 768 (`rows`, over the flattened numbers and the transposed weight matrix), and one 1024-row block of those.
-/
import Idealize.ShloMosaic.PureOps.Ideal
import Idealize.ShloMosaic.Lib.ValueIdx

noncomputable section

open scoped BigOperators

namespace Cert.Embed

open Idealize.ShloMosaic Idealize.ShloMosaic.ValueIdx

/-- One output entry: the encoded scalar `a · w + b` (a vector of 256 features) against one column `col` of 256 weights,
    plus the bias `z`. -/
def rowEntry (a : EReal) (w b : FVec Ideal ⟨1, ![256]⟩ .f32) (col : Fin 256 → EReal) (z : EReal) : EReal :=
  (∑ k : Fin 256, (a * w (ix1 k) + b (ix1 k)) * col k) + z

/-- An entry depends on its five ingredients only. -/
theorem rowEntry_congr {a a' : EReal} {w w' b b' : FVec Ideal ⟨1, ![256]⟩ .f32} {col col' : Fin 256 → EReal} {z z' : EReal}
    (ha : a = a') (hw : w = w') (hb : b = b') (hc : col = col') (hz : z = z') :
    rowEntry a w b col z = rowEntry a' w' b' col' z' := by
  subst ha hw hb hc hz; rfl

/-- The result array: entry (b, s, d) pairs the scalar at (b, s) with row d of the projection matrix. -/
def embed (x0 : FVec Ideal ⟨2, ![32, 4096]⟩ .f32) (x1 x2 : FVec Ideal ⟨1, ![256]⟩ .f32) (x3 : FVec Ideal ⟨2, ![768, 256]⟩ .f32)
    (x4 : FVec Ideal ⟨1, ![768]⟩ .f32) : FVec Ideal ⟨3, ![32, 4096, 768]⟩ .f32 :=
  fun i => rowEntry (x0 (ix2 (i 0 : Fin 32) (i 1 : Fin 4096))) x1 x2 (fun k => x3 (ix2 (i 2 : Fin 768) k)) (x4 (ix1 (i 2 : Fin 768)))

theorem embed_apply (x0 : FVec Ideal ⟨2, ![32, 4096]⟩ .f32) (x1 x2 : FVec Ideal ⟨1, ![256]⟩ .f32) (x3 : FVec Ideal ⟨2, ![768, 256]⟩ .f32)
    (x4 : FVec Ideal ⟨1, ![768]⟩ .f32) (b : Fin 32) (s : Fin 4096) (d : Fin 768) :
    embed x0 x1 x2 x3 x4 (ix3 b s d) = rowEntry (x0 (ix2 b s)) x1 x2 (fun k => x3 (ix2 d k)) (x4 (ix1 d)) := rfl

/-- The same entries as 131072 rows of 768: row r pairs the r-th scalar of the flattened numbers `a` with column d of the
    transposed (256 × 768) projection matrix `wT`. -/
def rows (a : FVec Ideal ⟨1, ![131072]⟩ .f32) (x1 x2 : FVec Ideal ⟨1, ![256]⟩ .f32) (wT : FVec Ideal ⟨2, ![256, 768]⟩ .f32)
    (x4 : FVec Ideal ⟨1, ![768]⟩ .f32) : FVec Ideal ⟨2, ![131072, 768]⟩ .f32 :=
  fun i => rowEntry (a (ix1 (i 0 : Fin 131072))) x1 x2 (fun k => wT (ix2 k (i 1 : Fin 768))) (x4 (ix1 (i 1 : Fin 768)))

theorem rows_apply (a : FVec Ideal ⟨1, ![131072]⟩ .f32) (x1 x2 : FVec Ideal ⟨1, ![256]⟩ .f32) (wT : FVec Ideal ⟨2, ![256, 768]⟩ .f32)
    (x4 : FVec Ideal ⟨1, ![768]⟩ .f32) (r : Fin 131072) (d : Fin 768) :
    rows a x1 x2 wT x4 (ix2 r d) = rowEntry (a (ix1 r)) x1 x2 (fun k => wT (ix2 k d)) (x4 (ix1 d)) := rfl

end Cert.Embed

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«101949_j54331336294524_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«101949_j54331336294524_1_alg».proof.Proof.LibDenseRows
import proofs.«101949_j54331336294524_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Payload.lean ====
/-
  The kernel body's one stored value, read at an entry.

  The body works on a block of 1024 scalars `v0`, the two encoder vectors `v2`, `v3` (256 features each), the whole
  transposed projection matrix `v13` (256 × 768) and the bias `v17` (768). It spreads the scalars down a column and the
  encoder vectors along rows, forms the 1024 × 256 features  v0 p · v2 k + v3 k, multiplies them by the 256 × 768 matrix
  into a zero accumulator and adds the bias row. On the extended reals the two changes of float format are the identity
  and the matrix product is the plain sum over the 256 features, so entry (p, q) of the stored block is the entry
  `rowEntry` names: scalar p, column q of the matrix, bias q.
-/
import proofs.«101949_j54331336294524_1_alg».proof.Proof.Gen.KernelIdeal.Skeleton
import proofs.«101949_j54331336294524_1_alg».proof.Proof.Spec
import proofs.«101949_j54331336294524_1_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The printed record of the product's dimension numbers is the plain [M, K] × [K, N] one. -/
theorem dims_plain : dot_S1024x256_S256x768_S1024x768_1_0_0_1_n_n = DotDims.plain 1024 256 768 := rfl

/-- Entry (p, q) of the stored block: the encoded p-th scalar against column q of the matrix, plus bias q. -/
theorem pay_apply (v0 : FVec Ideal S1024 .f32) (v2 v3 : FVec Ideal S256 .f32) (v13 : FVec Ideal S256x768 .f32) (v17 : FVec Ideal S768 .f32)
    (p : Fin 1024) (q : Fin 768) :
    k0_pay1 (F := Ideal) v0 v2 v3 v13 v17 (ix2 p q)
      = Cert.Embed.rowEntry (v0 (ix1 p)) v2 v3 (fun k => v13 (ix2 k q)) (v17 (ix1 q)) := by
  unfold k0_pay1 Cert.Embed.rowEntry
  exact congrArg₂ (· + ·)
    ((Cert.PlainLayers.plainMM_of_eq dot_S1024x256_S256x768_S1024x768_1_0_0_1_n_n dims_plain none _ _ p q).trans
      (Finset.sum_congr rfl fun k _ => congrArg₂ (· * ·)
        (congrArg₂ (· + ·)
          (congrArg₂ (· * ·)
            ((Cert.Columns.broadcastTo_a1_ab_apply _ broadcasts_S1024x1_S1024x256 p k).trans
              ((Cert.DenseRows.shapeCast_a_a1_apply _ shapeCasts_S1024_S1024x1 p 0).trans
                (congrFun (shapeCast_self v0 shapeCasts_S1024_S1024) (ix1 p))))
            ((broadcastTo_1b_ab_apply _ broadcasts_S1x256_S1024x256 p k).trans (shapeCast_a_1a_apply v2 shapeCasts_S256_S1x256 0 k)))
          ((broadcastTo_1b_ab_apply _ broadcasts_S1x256_S1024x256 p k).trans (shapeCast_a_1a_apply v3 shapeCasts_S256_S1x256 0 k)))
        (congrFun (shapeCast_self v13 shapeCasts_S256x768_S256x768) (ix2 k q))))
    ((broadcastTo_1b_ab_apply _ broadcasts_S1x768_S1024x768 p q).trans (shapeCast_a_1a_apply v17 shapeCasts_S768_S1x768 0 q))

/-- The same at any index of the block, by its two coordinates. -/
theorem pay_at (v0 : FVec Ideal S1024 .f32) (v2 v3 : FVec Ideal S256 .f32) (v13 : FVec Ideal S256x768 .f32) (v17 : FVec Ideal S768 .f32)
    (j : S1024x768.Idx) :
    k0_pay1 (F := Ideal) v0 v2 v3 v13 v17 j
      = Cert.Embed.rowEntry (v0 (ix1 (j 0 : Fin 1024))) v2 v3 (fun k => v13 (ix2 k (j 1 : Fin 768))) (v17 (ix1 (j 1 : Fin 768))) := by
  obtain ⟨p, q, rfl⟩ : ∃ (p : Fin 1024) (q : Fin 768), j = ix2 p q := ⟨j 0, j 1, eq_ix2 j⟩
  exact pay_apply v0 v2 v3 v13 v17 p q

end Cert.KernelIdeal.Payload

end
-- ==== Proof.Blocks.lean ====
/-
  From the blocks the grid writes back to the whole [131072, 768] array.

  The grid has 128 points. Point t reads scalars 1024 · t … 1024 · t + 1023 of the flattened numbers, and at every point
  the two encoder vectors, the transposed projection matrix and the bias whole; it writes rows 1024 · t … 1024 · t + 1023
  of the result. By the payload's reading, row p of what point t writes is the entry of scalar 1024 · t + p, which is the
  same row of ONE function of the arrays the grid is launched on (`Cert.Embed.rows`). The 128 blocks of 1024 rows tile
  the 131072 rows, so after the last point the array is that function.
-/
import proofs.«101949_j54331336294524_1_alg».proof.Proof.Gen.KernelIdeal.Frame
import proofs.«101949_j54331336294524_1_alg».proof.Proof.Payload
import Idealize.ShloMosaic.Lib.Pipeline.Value
import Idealize.ShloMosaic.Lib.ValueIdx

set_option maxRecDepth 16384

noncomputable section

namespace Cert.KernelIdeal.Rows

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem zero1 : (![0] : Fin 1 → Nat) = fun _ => 0 := funext fun a => by fin_cases a <;> rfl
theorem zero2 : (![0, 0] : Fin 2 → Nat) = fun _ => 0 := funext fun a => by fin_cases a <;> rfl

/-- Where each window's block sits at point t: the scalars' and the result's block number is t, every other window has
    the one block that is its whole array. -/
theorem block_numbers : ∀ t : Fin cfg0.N,
    win0_0.index t (0 : Fin 1) = t.val ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0 :=
  (by decide +kernel : ∀ t : Fin grid0.N, _)

/-- The function the result array ends holding: `rows` of the arrays as the grid finds them. -/
abbrev target (c : Dev nD) : FVec Ideal S131072x768 .f32 :=
  Cert.Embed.rows (V m c main_v0) (V m c main_arg1) (V m c main_arg2) (V m c main_v1) (V m c main_arg4)

/-- The encoder weights' block is the whole vector. -/
theorem blk_w_enc (c : Dev nD) (t : Fin cfg0.N) : iblk m c 1 t = V m c main_arg1 := by
  obtain ⟨-, e1, -⟩ := block_numbers t
  funext y
  show V m c main_arg1 (((cfg0.win 1).blk t).view.emb y) = V m c main_arg1 y
  refine congrArg (V m c main_arg1) (funext fun a => Fin.ext ?_)
  match a with
  | ⟨0, _⟩ => show win0_1.index t (0 : Fin 1) * 256 + 1 * (y 0).val = (y 0).val; omega

/-- The encoder biases' block is the whole vector. -/
theorem blk_b_enc (c : Dev nD) (t : Fin cfg0.N) : iblk m c 2 t = V m c main_arg2 := by
  obtain ⟨-, -, e2, -⟩ := block_numbers t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 256 + 1 * (y 0).val = (y 0).val; omega

/-- The transposed matrix's block is the whole matrix. -/
theorem blk_wT (c : Dev nD) (t : Fin cfg0.N) : iblk m c 3 t = V m c main_v1 := by
  obtain ⟨-, -, -, e3, e3', -⟩ := block_numbers t
  funext y
  show V m c main_v1 (((cfg0.win 3).blk t).view.emb y) = V m c main_v1 y
  refine congrArg (V m c main_v1) (funext fun a => Fin.ext ?_)
  match a with
  | ⟨0, _⟩ => show win0_3.index t (0 : Fin 2) * 256 + 1 * (y 0).val = (y 0).val; omega
  | ⟨1, _⟩ => show win0_3.index t (1 : Fin 2) * 768 + 1 * (y 1).val = (y 1).val; omega

/-- The projection bias's block is the whole vector. -/
theorem blk_b_proj (c : Dev nD) (t : Fin cfg0.N) : iblk m c 4 t = V m c main_arg4 := by
  obtain ⟨-, -, -, -, -, e4, -⟩ := block_numbers t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 768 + 1 * (y 0).val = (y 0).val; omega

/-- Scalar p of point t's block of the flattened numbers is the scalar of the row that entry (p, ·) of point t's
    result block lands on: both blocks are number t of blocks of 1024. -/
theorem blk_numbers (c : Dev nD) (t : Fin cfg0.N) (j : S1024x768.Idx) :
    iblk m c 0 t (ix1 (j 0 : Fin 1024)) = V m c main_v0 (ix1 ((((cfg0.win 5).blk t).view.emb j) 0 : Fin 131072)) := by
  obtain ⟨e0, -, -, -, -, -, e5, -⟩ := block_numbers t
  show V m c main_v0 (((cfg0.win 0).blk t).view.emb (ix1 (j 0 : Fin 1024))) = _
  refine congrArg (V m c main_v0) (funext fun a => Fin.ext ?_)
  match a with
  | ⟨0, _⟩ =>
    show win0_0.index t (0 : Fin 1) * 1024 + 1 * (j 0).val = win0_5.index t (0 : Fin 2) * 1024 + 1 * (j 0).val
    rw [e0, e5]

/-- The column of entry (·, q) of point t's result block is column q. -/
theorem blk_column (t : Fin cfg0.N) (j : S1024x768.Idx) :
    ((((cfg0.win 5).blk t).view.emb j) 1 : Fin 768) = (j 1 : Fin 768) := by
  obtain ⟨-, -, -, -, -, -, -, e5'⟩ := block_numbers t
  refine Fin.ext ?_
  show win0_5.index t (1 : Fin 2) * 768 + 1 * (j 1).val = (j 1).val
  omega

/-- WHAT POINT t WRITES BACK is block t of `target`. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero zero2]
  simp only [View.ld_unit_zero (S := S1024) zero1, View.ld_unit_zero (S := S256) zero1,
    View.ld_unit_zero (S := S256x768) zero2, View.ld_unit_zero (S := S768) zero1]
  funext j
  show k0_pay1 (F := Ideal) (iblk m c 0 t) (iblk m c 1 t) (iblk m c 2 t) (iblk m c 3 t) (iblk m c 4 t) j
    = target m c (((cfg0.win 5).blk t).view.emb j)
  refine (Cert.KernelIdeal.Payload.pay_at (iblk m c 0 t) (iblk m c 1 t) (iblk m c 2 t) (iblk m c 3 t) (iblk m c 4 t) j).trans ?_
  have hq : ((((cfg0.win 5).blk t).view.emb j) 1 : Fin 768) = (j 1 : Fin 768) := blk_column t j
  exact Cert.Embed.rowEntry_congr (blk_numbers m c t j) (blk_w_enc m c t) (blk_b_enc m c t)
    (funext fun k => (congrFun (blk_wT m c t) (ix2 k (j 1 : Fin 768))).trans
      (congrArg (fun q : Fin 768 => V m c main_v1 (ix2 k q)) hq.symm))
    ((congrFun (blk_b_proj m c t) (ix1 (j 1 : Fin 768))).trans
      (congrArg (fun q : Fin 768 => V m c main_arg4 (ix1 q)) hq.symm))

/-- A row index is in point t's block iff it lies in the block's range of rows (and of columns: all of them). -/
theorem mem_blk (t : Fin cfg0.N) (i : S131072x768.Idx) :
    i ∈ ((cfg0.win 5).blk t).view.set ↔ ∀ a : Fin 2, win0_5.index t a * S1024x768.size a ≤ (i a).val
      ∧ (i a).val < win0_5.index t a * S1024x768.size a + S1024x768.size a := by
  show i ∈ ((View.whole main_v2).slice (win0_5.rect t)).set ↔ _
  rw [View.set_slice_whole, Rect.mem_set_unit]
  exact Iff.rfl

/-- Every entry of the result is written: row r by point r / 1024. -/
theorem cover (i : S131072x768.Idx) :
    ∃ t : Fin cfg0.N, (cfg0.win 5).flush t = true ∧ i ∈ ((cfg0.win 5).blk t).view.set := by
  have hi0 : (i 0).val < 131072 := (i 0).isLt
  have hi1 : (i 1).val < 768 := (i 1).isLt
  have hlt : (i 0).val / 1024 < cfg0.N := by
    have hN : cfg0.N = 128 := N_0
    omega
  obtain ⟨t, ht⟩ : ∃ t : Fin cfg0.N, t.val = (i 0).val / 1024 := ⟨⟨_, hlt⟩, rfl⟩
  obtain ⟨-, -, -, -, -, -, e5, e5'⟩ := block_numbers t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e5, ht]
    omega
  | ⟨1, _⟩ =>
    show win0_5.index t (1 : Fin 2) * 768 ≤ (i 1).val ∧ (i 1).val < win0_5.index t (1 : Fin 2) * 768 + 768
    rw [e5']
    omega

/-- THE ARRAY after the last point is `target`. -/
theorem final (c : Dev nD) : (dats m 0 c).arrAt 5 cfg0.N = target m c :=
  (dats m 0 c).arrAt_eq_of_cover 5 (target m c) (fun t _ => flushed_eq m c t) cover

end Cert.KernelIdeal.Rows

end
-- ==== Proof.HostLines.lean ====
/-
  The host lines around the grid.

  Before the grid the program flattens the numbers into main_v0 and transposes W_proj into main_v1; after it, it splits
  the grid's [131072, 768] result main_v2 into the [32, 4096, 768] result main_v3. Here each of those three buffers is read
  as the layout operation applied to the buffer it came from: the two the grid is launched on in terms of the program's
  arguments, the final one in terms of the array the grid leaves.
-/
import proofs.«101949_j54331336294524_1_alg».proof.Proof.Gen.KernelIdeal.Frame
import Idealize.ShloMosaic.PureOps.Ideal
import Idealize.ShloMosaic.Lib.StableHlo.Run
import Idealize.ShloMosaic.Lib.Pipeline.Value

set_option maxRecDepth 16384

noncomputable section

namespace Cert.KernelIdeal.HostLines

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

/-- The grid finds the numbers flattened. -/
theorem V_flat (c : Dev nD) :
    (V m c main_v0 : S131072.Idx → EReal)
      = shapeCast S131072 (m ((c : Thread nD τ).loc main_arg0)) shapeCasts_S32x4096_S131072 := by
  show StableHlo.after hostOps0 (fun b => m (c, b)) (Proc.devRef .tc main_v0) = _
  after_results
  rfl

/-- The grid finds the projection matrix transposed. -/
theorem V_transposed (c : Dev nD) :
    (V m c main_v1 : S256x768.Idx → EReal)
      = transpose S256x768 [1, 0] (m ((c : Thread nD τ).loc main_arg3)) transposes_S768x256_S256x768_1_0 := by
  show StableHlo.after hostOps0 (fun b => m (c, b)) (Proc.devRef .tc main_v1) = _
  after_results

/-- The program's result is the grid's array split back into [32, 4096] rows. -/
theorem tail_result (c : Dev nD) :
    (Pipeline.afterTail₀ cfgs (dats m) 0 (V0 m) [hostOps1] c main_v3 : S32x4096x768.Idx → EReal)
      = shapeCast S32x4096x768 ((dats m 0 c).arrAt 5 cfg0.N) shapeCasts_S131072x768_S32x4096x768 := by
  have e : Pipeline.withArrays spec0 c (V0 m c) (fun w => (dats m 0 c).arrAt w cfg0.N) (Proc.devRef .tc main_v2)
      = (dats m 0 c).arrAt 5 cfg0.N :=
    Pipeline.withArrays_arr spec0 launch0.win.arr_inj c (V0 m c) (fun w => (dats m 0 c).arrAt w cfg0.N) 5
  unfold Pipeline.afterTail₀
  show StableHlo.after hostOps1 _ (Proc.devRef .tc main_v3) = _
  after_results
  exact congrArg (fun A : S131072x768.Idx → EReal => shapeCast S32x4096x768 A shapeCasts_S131072x768_S32x4096x768) e

end Cert.KernelIdeal.HostLines

end
-- ==== Proof.Layout.lean ====
/-
  The kernel's three changes of layout, read at an index, and what they do to the result.

  Around its one grid of blocks the kernel flattens the numbers [32, 4096] into 131072 scalars, transposes W_proj
  [768, 256] into [256, 768], and at the end splits the 131072 result rows back into [32, 4096]. A flattening keeps the
  row-major position: scalar (b, s) is scalar number 4096 · b + s, and row 4096 · b + s of the result is entry (b, s).
  So the rows the grid produces, split back, are the array `embed` names.
-/
import proofs.«101949_j54331336294524_1_alg».proof.Proof.Spec
import Idealize.ShloMosaic.Lib.ValueIdx
import Idealize.ShloMosaic.Lib.Pipeline.Value

noncomputable section

open scoped BigOperators

namespace Cert.Embed

open Idealize.ShloMosaic Idealize.ShloMosaic.ValueIdx

/-- The flattened numbers at position r = 4096 · b + s are the numbers at (b, s). -/
theorem flat_apply {α : Type} (x0 : (⟨2, ![32, 4096]⟩ : Shape).Idx → α) (h : (⟨2, ![32, 4096]⟩ : Shape).ShapeCasts ⟨1, ![131072]⟩)
    (b : Fin 32) (s : Fin 4096) (r : Fin 131072) (hr : r.val = b.val * 4096 + s.val) :
    shapeCast ⟨1, ![131072]⟩ x0 h (ix1 r) = x0 (ix2 b s) :=
  shapeCast_apply x0 h _ _ (by
    rw [Shape.rowMajor_val_two, Shape.rowMajor_val_one]
    show b.val * 4096 + s.val = r.val
    exact hr.symm)

/-- Entry (b, s, d) of the rows split back into [32, 4096] is entry (4096 · b + s, d) of the rows. -/
theorem unflat_apply {α : Type} (y : (⟨2, ![131072, 768]⟩ : Shape).Idx → α)
    (h : (⟨2, ![131072, 768]⟩ : Shape).ShapeCasts ⟨3, ![32, 4096, 768]⟩)
    (b : Fin 32) (s : Fin 4096) (d : Fin 768) (r : Fin 131072) (hr : r.val = b.val * 4096 + s.val) :
    shapeCast ⟨3, ![32, 4096, 768]⟩ y h (ix3 b s d) = y (ix2 r d) :=
  shapeCast_apply y h _ _ (by
    rw [Shape.rowMajor_val_two, Shape.rowMajor_val_three]
    show r.val * 768 + d.val = (b.val * 4096 + s.val) * 768 + d.val
    rw [hr])

/-- The transposed projection matrix at (k, d) is the matrix at (d, k). -/
theorem transposed_apply {α : Type} (x3 : (⟨2, ![768, 256]⟩ : Shape).Idx → α)
    (h : (⟨2, ![768, 256]⟩ : Shape).Transposes [1, 0] ⟨2, ![256, 768]⟩) (k : Fin 256) (d : Fin 768) :
    transpose ⟨2, ![256, 768]⟩ [1, 0] x3 h (ix2 k d) = x3 (ix2 d k) :=
  transpose_apply [1, 0] x3 h (ix2 k d) (ix2 d k) (fun a => by
    match a with
    | ⟨0, _⟩ => rfl
    | ⟨1, _⟩ => rfl)

/-- The 131072 rows over the flattened numbers and the transposed matrix, split back into [32, 4096], are `embed`. -/
theorem rows_is_embed (x0 : FVec Ideal ⟨2, ![32, 4096]⟩ .f32) (x1 x2 : FVec Ideal ⟨1, ![256]⟩ .f32)
    (x3 : FVec Ideal ⟨2, ![768, 256]⟩ .f32) (x4 : FVec Ideal ⟨1, ![768]⟩ .f32)
    (h0 : (⟨2, ![32, 4096]⟩ : Shape).ShapeCasts ⟨1, ![131072]⟩)
    (h3 : (⟨2, ![768, 256]⟩ : Shape).Transposes [1, 0] ⟨2, ![256, 768]⟩)
    (h5 : (⟨2, ![131072, 768]⟩ : Shape).ShapeCasts ⟨3, ![32, 4096, 768]⟩) :
    shapeCast ⟨3, ![32, 4096, 768]⟩
        (rows (shapeCast ⟨1, ![131072]⟩ x0 h0) x1 x2 (transpose ⟨2, ![256, 768]⟩ [1, 0] x3 h3) x4) h5
      = embed x0 x1 x2 x3 x4 := by
  funext i
  obtain ⟨b, s, d, rfl⟩ : ∃ (b : Fin 32) (s : Fin 4096) (d : Fin 768), i = ix3 b s d := ⟨i 0, i 1, i 2, eq_ix3 i⟩
  have hr : b.val * 4096 + s.val < 131072 := by
    have hb : b.val < 32 := b.isLt
    have hs : s.val < 4096 := s.isLt
    omega
  rw [unflat_apply _ h5 b s d ⟨b.val * 4096 + s.val, hr⟩ rfl, rows_apply, embed_apply]
  exact rowEntry_congr (flat_apply x0 h0 b s ⟨b.val * 4096 + s.val, hr⟩ rfl) rfl rfl
    (funext fun k => transposed_apply x3 h3 k d) rfl

end Cert.Embed

end
-- ==== Proof.KernelValue.lean ====
/-
  The idealized kernel's whole run: its result is `embed` of its arguments.

  The grid leaves `rows` of the flattened numbers and the transposed matrix in its [131072, 768] array; the line after
  the grid splits those rows back into [32, 4096]; and that, by the layout lemmas, is `embed` of the program's own five
  arguments. The run itself — every weakly fair execution ends, nothing faults, the arguments are unchanged — is the
  generated one; only its statement about the result buffer is sharpened here.
-/
import proofs.«101949_j54331336294524_1_alg».proof.Proof.Gen.KernelIdeal.Frame
import proofs.«101949_j54331336294524_1_alg».proof.Proof.Blocks
import proofs.«101949_j54331336294524_1_alg».proof.Proof.HostLines
import proofs.«101949_j54331336294524_1_alg».proof.Proof.Layout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- What the program's result buffer holds after the line that follows the grid. -/
theorem result_is_embed (c : Dev nD) :
    (Pipeline.afterTail₀ cfgs (dats m) 0 (V0 m) [hostOps1] c main_v3 : S32x4096x768.Idx → EReal)
      = Cert.Embed.embed (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Cert.KernelIdeal.HostLines.tail_result, Cert.KernelIdeal.Rows.final]
  show shapeCast S32x4096x768
      (Cert.Embed.rows (V m c main_v0) (V m c main_arg1) (V m c main_arg2) (V m c main_v1) (V m c main_arg4))
      shapeCasts_S131072x768_S32x4096x768 = _
  rw [Cert.KernelIdeal.HostLines.V_flat, Cert.KernelIdeal.HostLines.V_transposed, V_main_arg1, V_main_arg2, V_main_arg4]
  exact Cert.Embed.rows_is_embed _ _ _ _ _ _ _ _

/-- The run: the result buffer ends at `embed` of the arguments, and the arguments end as they began. -/
theorem run : θ_run defs (onTc (τ := τ) (main (F := Ideal))) ⟨m, fun _ => 0, ρ⟩ (fun r => ∀ c : Dev nD,
      r.2.mem ((c.tc : Thread nD τ).loc main_v3)
        = Cert.Embed.embed (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v3 (Pipeline.mem_restRefs_of main_v3 (by decide) (by decide))).trans (result_is_embed m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Whole

end
-- ==== Proof.RefSide.lean ====
/-
  The reference computes `embed`.

  The reference spreads the numbers along a new last axis and the two encoder vectors over the batch, forms the
  [32, 4096, 256] features  numbers (b, s) · w_enc k + b_enc k,  contracts their last axis with the last axis of W_proj and
  adds b_proj spread over the batch. Read at an entry (b, s, d) through the generated one-operation-at-a-time lemmas this
  is the sum over k of (numbers (b, s) · w_enc k + b_enc k) · W_proj (d, k), plus b_proj d: the entry `embed` names. All
  that is left to check is that the index maps the broadcasts compose to are the coordinates themselves.
-/
import proofs.«101949_j54331336294524_1_alg».proof.Proof.Gen.ReferenceIdeal.Read
import proofs.«101949_j54331336294524_1_alg».proof.Proof.Spec

noncomputable section

open scoped BigOperators

namespace Cert.ReferenceIdeal.RefValue

open Cert.ReferenceIdeal Cert.ReferenceIdeal.Read Idealize.ShloMosaic Idealize.ShloMosaic.ValueIdx

/-- The scalar a feature at (b, s, k) is built from sits at (b, s). -/
theorem idx_numbers (b : Fin 32) (s : Fin 4096) (d : Fin 768) (k : Fin 256) :
    idx_main_v0 (idx_main_v2 (lidx_main_v8 (ix3 b s d) k)) = ix2 b s :=
  funext fun a => Fin.ext (by match a with | ⟨0, _⟩ => rfl | ⟨1, _⟩ => rfl)

/-- Its encoder weight sits at k. -/
theorem idx_w_enc (b : Fin 32) (s : Fin 4096) (d : Fin 768) (k : Fin 256) :
    idx_main_v1 (idx_main_v3 (lidx_main_v8 (ix3 b s d) k)) = ix1 k :=
  funext fun a => Fin.ext (by match a with | ⟨0, _⟩ => rfl)

/-- Its encoder bias sits at k. -/
theorem idx_b_enc (b : Fin 32) (s : Fin 4096) (d : Fin 768) (k : Fin 256) :
    idx_main_v5 (idx_main_v6 (lidx_main_v8 (ix3 b s d) k)) = ix1 k :=
  funext fun a => Fin.ext (by match a with | ⟨0, _⟩ => rfl)

/-- The projection weight it meets sits at (d, k). -/
theorem idx_W_proj (b : Fin 32) (s : Fin 4096) (d : Fin 768) (k : Fin 256) :
    ridx_main_v8 (ix3 b s d) k = ix2 d k :=
  funext fun a => Fin.ext (by match a with | ⟨0, _⟩ => rfl | ⟨1, _⟩ => rfl)

/-- The projection bias of entry (b, s, d) sits at d. -/
theorem idx_b_proj (b : Fin 32) (s : Fin 4096) (d : Fin 768) :
    idx_main_v9 (idx_main_v10 (ix3 b s d)) = ix1 d :=
  funext fun a => Fin.ext (by match a with | ⟨0, _⟩ => rfl)

/-- The reference's result, as a function of the five arguments, is `embed` of them. -/
theorem ref_is_embed (x0 : FVec Ideal S32x4096 .f32) (x1 x2 : FVec Ideal S256 .f32) (x3 : FVec Ideal S768x256 .f32) (x4 : FVec Ideal S768 .f32) :
    val_main_v11 (F := Ideal) x0 x1 x2 x3 x4 = Cert.Embed.embed x0 x1 x2 x3 x4 := by
  funext i
  obtain ⟨b, s, d, rfl⟩ : ∃ (b : Fin 32) (s : Fin 4096) (d : Fin 768), i = ix3 b s d := ⟨i 0, i 1, i 2, eq_ix3 i⟩
  rw [Cert.Embed.embed_apply, val_main_v11_apply, val_main_v8_apply, val_main_v10_apply, val_main_v9_apply, idx_b_proj]
  unfold Cert.Embed.rowEntry
  refine congrArg₂ (· + ·) (Finset.sum_congr rfl fun k _ => ?_) rfl
  rw [val_main_v7_apply, val_main_v4_apply, val_main_v2_apply, val_main_v0_apply, val_main_v3_apply, val_main_v1_apply,
    val_main_v6_apply, val_main_v5_apply, idx_numbers, idx_w_enc, idx_b_enc, idx_W_proj]
  rfl

end Cert.ReferenceIdeal.RefValue

end
-- ==== Proof.lean ====
/-
  A numeric embedding layer, as a tiled kernel and as plain array code, computes one function on the extended reals.

  Each scalar numbers (b, s) is encoded as the 256-vector  numbers (b, s) · w_enc + b_enc  and projected to 768 features,

      out (b, s, d) = ∑ₖ (numbers (b, s) · w_enc k + b_enc k) · W_proj (d, k) + b_proj d.

  The kernel flattens the 32 × 4096 scalars, walks them in 128 blocks of 1024, builds each block's features in place,
  multiplies them by the transposed matrix and adds the bias, then splits the rows back; the reference broadcasts, adds,
  contracts and adds. With floats read as extended reals — the two roundings on the way into the matrix product the
  identity, the product a plain sum — both are the displayed sum, term for term and in the same order of factors, so no
  law of arithmetic beyond the meaning of the layout operations is used, and the finiteness of the inputs is never opened.

  The three frame claims are the generated frame runs (the reference's with its result forgotten); the idealization
  rewrote nothing, so its claim is trivial; the equality claim puts the kernel's run (Proof/KernelValue.lean) beside the
  reference's generated run read through Proof/RefSide.lean, both ending at `Cert.Embed.embed` of the shared arguments.
-/
import proofs.«101949_j54331336294524_1_alg».proof.Defs
import proofs.«101949_j54331336294524_1_alg».proof.Proof.Gen.Kernel
import proofs.«101949_j54331336294524_1_alg».proof.Proof.Gen.Kernel.Skeleton
import proofs.«101949_j54331336294524_1_alg».proof.Proof.Gen.Kernel.Launch
import proofs.«101949_j54331336294524_1_alg».proof.Proof.Gen.Kernel.Points
import proofs.«101949_j54331336294524_1_alg».proof.Proof.Gen.Kernel.Frame
import proofs.«101949_j54331336294524_1_alg».proof.Proof.Gen.KernelIdeal
import proofs.«101949_j54331336294524_1_alg».proof.Proof.Gen.KernelIdeal.Skeleton
import proofs.«101949_j54331336294524_1_alg».proof.Proof.Gen.KernelIdeal.Launch
import proofs.«101949_j54331336294524_1_alg».proof.Proof.Gen.KernelIdeal.Points
import proofs.«101949_j54331336294524_1_alg».proof.Proof.Gen.KernelIdeal.Frame
import proofs.«101949_j54331336294524_1_alg».proof.Proof.Gen.ReferenceIdeal
import proofs.«101949_j54331336294524_1_alg».proof.Proof.Gen.Pre_finite_inputs
import proofs.«101949_j54331336294524_1_alg».proof.Proof.Gen.ReferenceIdeal.Run
import proofs.«101949_j54331336294524_1_alg».proof.Proof.Gen.ReferenceIdeal.Read
import proofs.«101949_j54331336294524_1_alg».proof.Proof.KernelValue
import proofs.«101949_j54331336294524_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with `embed` of those arguments as their result:
    the kernel by its run, the reference because its composed term, read one operation at a time, is `embed`. -/
theorem algebraic : Cert.algebraic_KernelIdeal_ReferenceIdeal := by
  intro m ρ m' ρ' _ hagree
  refine ⟨fun c => Cert.Embed.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_is_embed,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
